-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8192 : Shape := ⟨2, ![4096, 8192]⟩
abbrev S_ : Shape := ⟨0, ![]⟩

class Facts : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel

variable [Facts]

def fn {F : FTy → Type} [FloatOps F] (main_arg0 : FVec F S4096x8192 .f32) (main_arg1 : FVec F S4096x8192 .f32) : IVec S_ 1 :=
  let main_v0 : FVec F S4096x8192 .f32 := Host.absf main_arg0
  let main_cst : FVec F S_ .f32 := constant S_ .f32 0x7F800000#32
  let main_v1 : FVec F S4096x8192 .f32 := broadcastInDim S4096x8192 ![] bcast_S_S4096x8192 main_cst
  let main_v2 : IVec S4096x8192 1 := cmpf .olt main_v0 main_v1
  let main_c : IVec S_ 1 := constantI S_ 1 1#1
  let main_v3 : IVec S_ 1 := (fun x v => Host.reduce IntOp.andi x v reducesTo_S4096x8192_S_d0_1 h_S_) main_v2 main_c
  let main_v4 : FVec F S4096x8192 .f32 := Host.absf main_arg1
  let main_cst_0 : FVec F S_ .f32 := constant S_ .f32 0x7F800000#32
  let main_v5 : FVec F S4096x8192 .f32 := broadcastInDim S4096x8192 ![] bcast_S_S4096x8192 main_cst_0
  let main_v6 : IVec S4096x8192 1 := cmpf .olt main_v4 main_v5
  let main_c_1 : IVec S_ 1 := constantI S_ 1 1#1
  let main_v7 : IVec S_ 1 := (fun x v => Host.reduce IntOp.andi x v reducesTo_S4096x8192_S_d0_1 h_S_) main_v6 main_c_1
  let main_v8 : IVec S_ 1 := andi main_v3 main_v7
  main_v8
-- ==== Kernel.lean ====
abbrev S4096x8192 : Shape := ⟨2, ![4096, 8192]⟩
abbrev S1x1 : Shape := ⟨2, ![1, 1]⟩
abbrev S256x8192 : Shape := ⟨2, ![256, 8192]⟩
abbrev S1x256x8192 : Shape := ⟨3, ![1, 256, 8192]⟩
abbrev S1 : Shape := ⟨1, ![1]⟩
abbrev S1x1x1 : Shape := ⟨3, ![1, 1, 1]⟩
abbrev S_ : Shape := ⟨0, ![]⟩

abbrev nBuf : Space → Nat
  | .hbm => 5
  | .vmem => 5
  | .smem => 0
  | _ => 0

abbrev bufTy : (tb : Table) → Fin (tcTables nBuf tb) → BufTy
  | .hbm, ⟨0, _⟩ => ⟨S4096x8192, .f32⟩
  | .hbm, ⟨1, _⟩ => ⟨S4096x8192, .f32⟩
  | .hbm, ⟨2, _⟩ => ⟨S1x1, .f32⟩
  | .hbm, ⟨3, _⟩ => ⟨S_, .f32⟩
  | .hbm, ⟨4, _⟩ => ⟨S_, .f32⟩
  | .local _ .vmem, ⟨0, _⟩ => ⟨S256x8192, .f32⟩
  | .local _ .vmem, ⟨1, _⟩ => ⟨S256x8192, .f32⟩
  | .local _ .vmem, ⟨2, _⟩ => ⟨S256x8192, .f32⟩
  | .local _ .vmem, ⟨3, _⟩ => ⟨S256x8192, .f32⟩
  | .local _ .vmem, ⟨4, _⟩ => ⟨S1x1, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1x1_S1x1_0_0 : ∀ a, (![0, 0] : Fin 2 → Nat) a + S1x1.size a ≤ S1x1.size a
  h_S1x1 : 0 < S1x1.numel
  inb_S256x8192_S256x8192_0_0 : ∀ a, (![0, 0] : Fin 2 → Nat) a + S256x8192.size a ≤ S256x8192.size a
  h_S256x8192 : 0 < S256x8192.numel
  shapeCasts_S256x8192_S1x256x8192 : S256x8192.ShapeCasts S1x256x8192
  reduces_S1x256x8192_S1 : S1x256x8192.Reduces [1, 2] S1
  shapeCasts_S1_S1x1x1 : S1.ShapeCasts S1x1x1
  inpos_S1x1x1_p0_0_0 : ∀ a, (![0, 0, 0] : Fin 3 → Nat) a < S1x1x1.size a
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S4096x8192.size a
  hwx0_0 : ∀ i : grid0.Coords, EltTy.bits .f32 = 32 ∨ (Rect.block (s := S4096x8192) S256x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x8192.size a ≤ S4096x8192.size a
  hwx0_1 : ∀ i : grid0.Coords, EltTy.bits .f32 = 32 ∨ (Rect.block (s := S4096x8192) S256x8192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x8192 : Shape := ⟨2, ![4096, 8192]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S4096x8192, .f32⟩
  | .hbm, ⟨2, _⟩ => ⟨S4096x8192, .f32⟩
  | .hbm, ⟨3, _⟩ => ⟨S4096x8192, .f32⟩
  | .hbm, ⟨4, _⟩ => ⟨S_, .f32⟩
  | .hbm, ⟨5, _⟩ => ⟨S4096x8192, .f32⟩
  | .hbm, ⟨6, _⟩ => ⟨S4096x8192, .i1⟩
  | .hbm, ⟨7, _⟩ => ⟨S_, .f32⟩
  | .hbm, ⟨8, _⟩ => ⟨S4096x8192, .f32⟩
  | .hbm, ⟨9, _⟩ => ⟨S4096x8192, .i1⟩
  | .hbm, ⟨10, _⟩ => ⟨S4096x8192, .i1⟩
  | .hbm, ⟨11, _⟩ => ⟨S_, .f32⟩
  | .hbm, ⟨12, _⟩ => ⟨S4096x8192, .f32⟩
  | .hbm, ⟨13, _⟩ => ⟨S4096x8192, .i1⟩
  | .hbm, ⟨14, _⟩ => ⟨S_, .f32⟩
  | .hbm, ⟨15, _⟩ => ⟨S4096x8192, .f32⟩
  | .hbm, ⟨16, _⟩ => ⟨S4096x8192, .i1⟩
  | .hbm, ⟨17, _⟩ => ⟨S4096x8192, .i1⟩
  | .hbm, ⟨18, _⟩ => ⟨S4096x8192, .i1⟩
  | .hbm, ⟨19, _⟩ => ⟨S4096x8192, .f32⟩
  | .hbm, ⟨20, _⟩ => ⟨S4096x8192, .f32⟩
  | .hbm, ⟨21, _⟩ => ⟨S4096x8192, .f32⟩
  | .hbm, ⟨22, _⟩ => ⟨S4096x8192, .f32⟩
  | .hbm, ⟨23, _⟩ => ⟨S4096x8192, .f32⟩
  | .hbm, ⟨24, _⟩ => ⟨S_, .f32⟩
  | .hbm, ⟨25, _⟩ => ⟨S_, .f32⟩
  | .hbm, ⟨26, _⟩ => ⟨S_, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]

class Facts₀ : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel

variable [Facts₀]

class Facts : Prop extends Facts₀ where

variable [Facts]
-- ==== Proof.Term.lean ====
/-
  The loss, as mathematics.

  For two extended reals o and t the TERM is (|o| + |t|)^2 when the signs of o and t strictly disagree
  (o < 0 < t, or t < 0 < o) and (|o| - |t|)^2 otherwise.  The loss of two 4096 x 8192 arrays is the square root
  of the sum of the term over all positions.

  The array is cut into 16 bands of 256 consecutive rows.  Row r of band t is row 256 t + r of the array, and this
  is a bijection between (band, row in band) and rows; so the sum over all positions is the sum over the bands of
  the sum over each band's positions.  Only commutativity and associativity of addition are used, so the law holds
  in any commutative monoid -- on the extended reals in particular, infinities included.

  A total that starts at zero and receives one summand per step is, after step n, the sum of the first n + 1
  summands.
-/
import Idealize.ShloMosaic.PureOps.Ideal
import Idealize.ShloMosaic.PureOps.Ideal.Laws
import Idealize.ShloMosaic.Lib.ValueIdx

noncomputable section

open scoped BigOperators

namespace Cert.Loss

open Idealize.ShloMosaic Idealize.ShloMosaic.ValueIdx

/-- The per-position term: (|o| + |t|)^2 where the signs strictly disagree, (|o| - |t|)^2 elsewhere, written with the
    float operations read on the extended reals (a comparison yields one bit; `z` is the zero it compares against). -/
def term (o t : Ideal .f32) : Ideal .f32 :=
  Scalar.select
    (IntOp.ori
      (IntOp.andi (FloatOps.cmpf .olt o (FloatOps.ofBits .f32 0x00000000#32)) (FloatOps.cmpf .ogt t (FloatOps.ofBits .f32 0x00000000#32)))
      (IntOp.andi (FloatOps.cmpf .ogt o (FloatOps.ofBits .f32 0x00000000#32)) (FloatOps.cmpf .olt t (FloatOps.ofBits .f32 0x00000000#32))))
    (FloatOps.mulf (FloatOps.addf (FloatOps.absf o) (FloatOps.absf t)) (FloatOps.addf (FloatOps.absf o) (FloatOps.absf t)))
    (FloatOps.mulf (FloatOps.subf (FloatOps.absf o) (FloatOps.absf t)) (FloatOps.subf (FloatOps.absf o) (FloatOps.absf t)))

/-- The sum of the term over every position of two arrays of one shape. -/
def total {s : Shape} (a b : s.Idx → Ideal .f32) : Ideal .f32 := ∑ i : s.Idx, term (a i) (b i)

/-! ## Bands of 256 rows -/

/-- Row `r` of band `t` is row `256 t + r` of the array. -/
def bandRow (t : Fin 16) (r : Fin 256) : Fin 4096 := ⟨256 * t.val + r.val, by omega⟩

/-- Every row is row `a mod 256` of band `a / 256`, of no other. -/
def bandRowEquiv : Fin 16 × Fin 256 ≃ Fin 4096 where
  toFun p := bandRow p.1 p.2
  invFun a := (⟨a.val / 256, by omega⟩, ⟨a.val % 256, by omega⟩)
  left_inv p := by
    obtain ⟨t, r⟩ := p
    apply Prod.ext
    · apply Fin.ext; show (256 * t.val + r.val) / 256 = t.val; omega
    · apply Fin.ext; show (256 * t.val + r.val) % 256 = r.val; omega
  right_inv a := by
    apply Fin.ext; show 256 * (a.val / 256) + a.val % 256 = a.val; omega

/-- Position `j` of band `t`, as a position of the array: the band's row, the same column. -/
def bandIdx (t : Fin 16) (j : (⟨2, ![256, 8192]⟩ : Shape).Idx) : (⟨2, ![4096, 8192]⟩ : Shape).Idx :=
  ix2 (bandRow t (j 0)) (j 1)

/-- A sum over the array is the sum over the bands of the sums over each band. -/
theorem sum_bands {M : Type*} [AddCommMonoid M] (f : (⟨2, ![4096, 8192]⟩ : Shape).Idx → M) :
    ∑ i, f i = ∑ t : Fin 16, ∑ j : (⟨2, ![256, 8192]⟩ : Shape).Idx, f (bandIdx t j) := by
  rw [sum_idx2]
  have e : ∀ t : Fin 16, ∑ j : (⟨2, ![256, 8192]⟩ : Shape).Idx, f (bandIdx t j)
      = ∑ r : Fin 256, ∑ b : Fin 8192, f (ix2 (bandRow t r) b) := fun t => by
    rw [sum_idx2]; rfl
  rw [Finset.sum_congr rfl fun t _ => e t,
    ← Equiv.sum_comp bandRowEquiv (fun a => ∑ b : Fin 8192, f (ix2 a b)), Fintype.sum_prod_type]
  rfl

/-! ## A running total -/

/-- A total that is `0 + s 0` after the first step and gains `s (n + 1)` at step `n + 1` is, after step `n`, the sum of
    `s 0, …, s n`. -/
theorem running_total {M : Type*} [AddCommMonoid M] {N : ℕ} (s : Fin N → M) (a : (n : ℕ) → n < N → M)
    (h0 : ∀ h : 0 < N, a 0 h = 0 + s ⟨0, h⟩)
    (hs : ∀ (n : ℕ) (h : n + 1 < N), a (n + 1) h = a n (Nat.lt_of_succ_lt h) + s ⟨n + 1, h⟩) :
    ∀ (n : ℕ) (h : n < N), a n h = ∑ t : Fin (n + 1), s ⟨t.val, lt_of_le_of_lt (Nat.le_of_lt_succ t.isLt) h⟩
  | 0, h => by rw [h0 h, zero_add, Fin.sum_univ_one]; rfl
  | n + 1, h => by
    rw [hs n h, running_total s a h0 hs n (Nat.lt_of_succ_lt h)]
    exact (Fin.sum_univ_castSucc
      (fun t : Fin (n + 1 + 1) => s ⟨t.val, lt_of_le_of_lt (Nat.le_of_lt_succ t.isLt) h⟩)).symm

/-- After the last step it is the sum of all the summands. -/
theorem running_total_last {M : Type*} [AddCommMonoid M] {N : ℕ} (s : Fin (N + 1) → M) (a : (n : ℕ) → n < N + 1 → M)
    (h0 : ∀ h : 0 < N + 1, a 0 h = 0 + s ⟨0, h⟩)
    (hs : ∀ (n : ℕ) (h : n + 1 < N + 1), a (n + 1) h = a n (Nat.lt_of_succ_lt h) + s ⟨n + 1, h⟩) :
    a N (Nat.lt_succ_self N) = ∑ t : Fin (N + 1), s t :=
  running_total s a h0 hs N (Nat.lt_succ_self N)

end Cert.Loss

end
-- ==== Proof.CaseValues.lean ====
/-
  What one grid point leaves in the one-element output block, as a value.

  The body's last store writes `k0_pay2 o t acc`: the block's previous content `acc` plus the sum of the term over the
  point's band (o and t are the two input bands).  At the first point the body first stores the zero block `k0_pay1`
  and reads it back, so there `acc` is that zero block; at every later point `acc` is what the point before left.
  Both facts hold for any reading of the float operations.
-/
import proofs.«123734_j36206574305815_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Loss

open Cert.KernelIdeal Cert.KernelIdeal.Gen

variable {F : FTy → Type} [FloatOps F]

/-- The offsets of a whole-block access are all zero. -/
theorem offsets_zero : (![0, 0] : Fin 2 → Nat) = fun _ => 0 := funext fun a => by fin_cases a <;> rfl

/-- A LATER point (not the first): the block held `acc`; the body's one store covers it with `acc` plus the band's sum. -/
theorem later_point_value (c : Dev nD) (i : grid0.Coords) (a1 : Memref sig .tc .vmem S256x8192 .f32) (h1 : a1.IsWhole)
    (a2 : Memref sig .tc .vmem S256x8192 .f32) (h2 : a2.IsWhole) (a3 : Memref sig .tc .vmem S1x1 .f32) (h3 : a3.IsWhole)
    (hc : ¬cond0_0 i) (o t : Vec F S256x8192 .f32) (acc : Vec F S1x1 .f32) :
    out0_B_2 c i a1 h1 a2 h2 a3 h3 hc o t acc = k0_pay2 o t acc := by
  unfold out0_B_2
  rw [View.read_writes_eq_canon _ _ _ (cover0_B_2 c i a1 h1 a2 h2 a3 h3 hc o t acc)]
  unfold kernelRun0_B
  dsimp only
  rw [View.canon_unit_zero offsets_zero]
  simp only [View.readAt_eq_ld, h1.read_unread, h2.read_unread, h3.read_unread,
    View.ld_unit_zero (S := S256x8192) offsets_zero, View.ld_unit_zero (S := S1x1) offsets_zero]

/-- The FIRST point: the body stores the zero block, reads it back as the previous content, and covers the block with
    that zero plus the band's sum. -/
theorem first_point_value (c : Dev nD) (i : grid0.Coords) (a1 : Memref sig .tc .vmem S256x8192 .f32) (h1 : a1.IsWhole)
    (a2 : Memref sig .tc .vmem S256x8192 .f32) (h2 : a2.IsWhole) (a3 : Memref sig .tc .vmem S1x1 .f32) (h3 : a3.IsWhole)
    (hc : cond0_0 i) (o t : Vec F S256x8192 .f32) :
    out0_A_2 c i a1 h1 a2 h2 a3 h3 hc o t = k0_pay2 o t k0_pay1 := by
  unfold out0_A_2
  rw [View.read_writes_eq_canon _ _ _ (cover0_A_2 c i a1 h1 a2 h2 a3 h3 hc o t)]
  unfold kernelRun0_A
  dsimp only
  sl_unfold_words
  rw [View.canon_cons_unit_zero (S := S1x1) offsets_zero, View.readCov_unit_zero (S := S1x1) _ offsets_zero]
  simp only [View.readAt_eq_ld, h1.read_unread, h2.read_unread, View.ld_unit_zero (S := S256x8192) offsets_zero]

end Cert.KernelIdeal.Loss

end
-- ==== Proof.BandSum.lean ====
/-
  The body's arithmetic on the extended reals.

  The body computes the term at every position of the point's band (a 256 x 8192 array), views the result as a
  1 x 256 x 8192 array, adds it up along its last two axes into one number, and adds that number to the previous
  content of the one-element output block.  Adding along the last two axes of a 1 x 256 x 8192 array into a
  one-element array is the sum over all its positions, and re-viewing an array does not change the set of values it
  holds, so that number is the sum of the term over the band.  The block the first point stores first is zero.
-/
import proofs.«123734_j36206574305815_1_alg».proof.Proof.Gen.KernelIdeal.Skeleton
import proofs.«123734_j36206574305815_1_alg».proof.Proof.Term
import Idealize.ShloMosaic.PureOps.Ideal.Laws
import Idealize.ShloMosaic.Lib.Pipeline.Value
import Idealize.ShloMosaic.Lib.ValueIdx

noncomputable section

open scoped BigOperators
open Idealize.ShloMosaic Idealize.ShloMosaic.ValueIdx

namespace Cert.KernelIdeal.Loss

open Cert.KernelIdeal Cert.KernelIdeal.Gen

/-- A band viewed as 1 x 256 x 8192, added up along its last two axes into one number, re-viewed and read out: the sum
    over the band's positions. -/
theorem band_reduce (v : FVec Ideal S256x8192 .f32) (h1 : S256x8192.ShapeCasts S1x256x8192)
    (hr : S1x256x8192.Reduces [1, 2] S1) (hφ : FKind.Formats .f32)
    (hacc : (0x00000000#32 : BitVec 32) = FKind.add.neutral .f32 hφ) (h2 : S1.ShapeCasts S1x1x1)
    (hp : ∀ a, (![0, 0, 0] : Fin 3 → Nat) a < S1x1x1.size a) :
    extractAt ![0, 0, 0]
        (shapeCast S1x1x1 (multiReduction .add [1, 2] S1 (shapeCast S1x256x8192 v h1) 0x00000000#32 hr hφ hacc) h2) hp
      = ∑ j : S256x8192.Idx, v j := by
  unfold extractAt shapeCast
  refine (Ideal.multiReduction_add_total _ _ hr (fun b => ?_) hφ hacc _).trans ?_
  · match b with
    | ⟨0, _⟩ => rfl
  · exact Equiv.sum_comp (Shape.reshapeEquiv h1) v

/-- The body's last store, read at the block's position: the previous content plus the sum of the term over the
    band. -/
theorem pay2_apply (o t : Vec Ideal S256x8192 .f32) (acc : Vec Ideal S1x1 .f32) (y : S1x1.Idx) :
    k0_pay2 (F := Ideal) o t acc y = acc y + Cert.Loss.total o t := by
  unfold k0_pay2
  refine (addf_apply _ _ y).trans ?_
  refine congrArg₂ (· + ·) (congrFun (shapeCast_self acc _) y) ?_
  refine (broadcast_apply _ y).trans ?_
  refine (band_reduce _ _ _ _ _ _ _).trans ?_
  unfold Cert.Loss.total
  exact Finset.sum_congr rfl fun j _ => rfl

/-- The block the first point stores before anything else is zero. -/
theorem pay1_apply (y : S1x1.Idx) : k0_pay1 (F := Ideal) y = 0 := by
  unfold k0_pay1
  exact Ideal.ofBits_zero_f32

end Cert.KernelIdeal.Loss

end
-- ==== Proof.Accumulate.lean ====
/-
  The output block after each grid point, on the extended reals.

  Point t reads band t of each input array: position j of its block is position (256 t + j0, j1) of the array.  The
  output block after the first point is zero plus the sum of the term over band 0, and after each later point what the
  point before left plus the sum over that point's band.  So after point n it holds the sum over bands 0, …, n, and
  after the last point (15) the sum over all sixteen bands, which is the sum of the term over the whole arrays.
-/
import proofs.«123734_j36206574305815_1_alg».proof.Proof.Gen.KernelIdeal.Frame
import proofs.«123734_j36206574305815_1_alg».proof.Proof.Term
import proofs.«123734_j36206574305815_1_alg».proof.Proof.CaseValues
import proofs.«123734_j36206574305815_1_alg».proof.Proof.BandSum
import Idealize.ShloMosaic.Lib.Pipeline.Value

noncomputable section

open scoped BigOperators
open Idealize.ShloMosaic Idealize.ShloMosaic.TcCoe Idealize.SL.Sem Idealize.ShloMosaic.ValueIdx

namespace Cert.KernelIdeal.Loss

open Cert.KernelIdeal Cert.KernelIdeal.Gen

variable (m : (ℓ : Loc nD τ sig) → Buf (Elt Ideal) ℓ)

/-! ## The input blocks are the bands -/

/-- At point `t` each input window is on block row `t`, block column 0. -/
theorem input_index0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem input_index1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

/-- Position `j` of the first input's block at point `t` is position `j` of band `t` of the first argument. -/
theorem band_of_arg0 (c : Dev nD) (t : Fin cfg0.N) (T : Fin 16) (hT : T.val = t.val) (j : S256x8192.Idx) :
    (iblk m c 0 t : Vec Ideal S256x8192 .f32) j = m ((c : Thread nD τ).loc main_arg0) (Cert.Loss.bandIdx T j) := by
  unfold iblk
  rw [View.read_apply]
  show V m c main_arg0 (((cfg0.win 0).blk t).view.emb j) = _
  refine congrArg (m ((c : Thread nD τ).loc main_arg0)) (funext fun a => Fin.ext ?_)
  match a with
  | ⟨0, _⟩ =>
    show win0_0.index t 0 * 256 + 1 * (j 0).val = 256 * T.val + (j 0).val
    rw [(input_index0 t).1]; omega
  | ⟨1, _⟩ =>
    show win0_0.index t 1 * 8192 + 1 * (j 1).val = (j 1).val
    rw [(input_index0 t).2]; omega

/-- The same for the second input and the second argument. -/
theorem band_of_arg1 (c : Dev nD) (t : Fin cfg0.N) (T : Fin 16) (hT : T.val = t.val) (j : S256x8192.Idx) :
    (iblk m c 1 t : Vec Ideal S256x8192 .f32) j = m ((c : Thread nD τ).loc main_arg1) (Cert.Loss.bandIdx T j) := by
  unfold iblk
  rw [View.read_apply]
  show V m c main_arg1 (((cfg0.win 1).blk t).view.emb j) = _
  refine congrArg (m ((c : Thread nD τ).loc main_arg1)) (funext fun a => Fin.ext ?_)
  match a with
  | ⟨0, _⟩ =>
    show win0_1.index t 0 * 256 + 1 * (j 0).val = 256 * T.val + (j 0).val
    rw [(input_index1 t).1]; omega
  | ⟨1, _⟩ =>
    show win0_1.index t 1 * 8192 + 1 * (j 1).val = (j 1).val
    rw [(input_index1 t).2]; omega

/-! ## The running total -/

/-- The sum of the term over the band point `t` reads. -/
def bandTotal (c : Dev nD) (t : Fin cfg0.N) : Ideal .f32 :=
  Cert.Loss.total (iblk m c 0 t : Vec Ideal S256x8192 .f32) (iblk m c 1 t : Vec Ideal S256x8192 .f32)

/-- The sum of the term over the whole argument arrays. -/
def lossTotal (c : Dev nD) : Ideal .f32 :=
  Cert.Loss.total (m ((c : Thread nD τ).loc main_arg0)) (m ((c : Thread nD τ).loc main_arg1))

/-- After the first point the block holds zero plus the sum over band 0. -/
theorem first_total (c : Dev nD) (h : 0 < cfg0.N) (y : S1x1.Idx) :
    outsAt0 m c 0 h y = 0 + bandTotal m c ⟨0, h⟩ := by
  have stored : outsAt0 m c 0 h = k0_pay2 (F := Ideal) (iblk m c 0 ⟨0, h⟩) (iblk m c 1 ⟨0, h⟩) (k0_pay1 (F := Ideal)) :=
    (outsAt0_A m c ⟨0, h⟩ rfl).trans
      (first_point_value c (grid0.coords ⟨0, h⟩) (ms0_0 ⟨0, h⟩) (hs0_0 ⟨0, h⟩) (ms0_1 ⟨0, h⟩) (hs0_1 ⟨0, h⟩)
        (ms0_2 ⟨0, h⟩) (hs0_2 ⟨0, h⟩) ((hcond0_0 ⟨0, h⟩).mpr rfl) (iblk m c 0 ⟨0, h⟩) (iblk m c 1 ⟨0, h⟩))
  refine (congrFun stored y).trans ?_
  refine (pay2_apply (iblk m c 0 ⟨0, h⟩) (iblk m c 1 ⟨0, h⟩) (k0_pay1 (F := Ideal)) y).trans ?_
  rw [pay1_apply y]
  unfold bandTotal
  rfl

/-- After a later point it holds what the point before left plus the sum over that point's band. -/
theorem later_total (c : Dev nD) (n : ℕ) (h : n + 1 < cfg0.N) (y : S1x1.Idx) :
    outsAt0 m c (n + 1) h y = outsAt0 m c n (Nat.lt_of_succ_lt h) y + bandTotal m c ⟨n + 1, h⟩ := by
  have hN : cfg0.N = 16 := N_0
  have hB : ¬(⟨n + 1, h⟩ : Fin cfg0.N).val % 16 = 0 := by dsimp only; omega
  have stored : outsAt0 m c (n + 1) h
      = k0_pay2 (F := Ideal) (iblk m c 0 ⟨n + 1, h⟩) (iblk m c 1 ⟨n + 1, h⟩) (outsAt0 m c n (Nat.lt_of_succ_lt h)) :=
    (outsAt0_B m c ⟨n + 1, h⟩ hB).trans
      (later_point_value c (grid0.coords ⟨n + 1, h⟩) (ms0_0 ⟨n + 1, h⟩) (hs0_0 ⟨n + 1, h⟩) (ms0_1 ⟨n + 1, h⟩)
        (hs0_1 ⟨n + 1, h⟩) (ms0_2 ⟨n + 1, h⟩) (hs0_2 ⟨n + 1, h⟩) (fun hc => hB ((hcond0_0 ⟨n + 1, h⟩).mp hc))
        (iblk m c 0 ⟨n + 1, h⟩) (iblk m c 1 ⟨n + 1, h⟩) (outsAt0 m c n (Nat.lt_of_succ_lt h)))
  refine (congrFun stored y).trans ?_
  refine (pay2_apply (iblk m c 0 ⟨n + 1, h⟩) (iblk m c 1 ⟨n + 1, h⟩) (outsAt0 m c n (Nat.lt_of_succ_lt h)) y).trans ?_
  unfold bandTotal
  rfl

/-- So after point `n` it holds the sum over bands `0, …, n`. -/
theorem total_after (c : Dev nD) (y : S1x1.Idx) (n : ℕ) (h : n < cfg0.N) :
    outsAt0 m c n h y = ∑ t : Fin (n + 1), bandTotal m c ⟨t.val, lt_of_le_of_lt (Nat.le_of_lt_succ t.isLt) h⟩ :=
  Cert.Loss.running_total (bandTotal m c) (fun n h => outsAt0 m c n h y) (fun h => first_total m c h y)
    (fun n h => later_total m c n h y) n h

/-- After the last point it holds the sum of the term over the whole arrays: the sixteen bands make up the arrays. -/
theorem total_after_last (c : Dev nD) (y : S1x1.Idx) (h : 15 < cfg0.N) : outsAt0 m c 15 h y = lossTotal m c := by
  refine (total_after m c y 15 h).trans ?_
  unfold lossTotal Cert.Loss.total
  refine Eq.trans ?_ (Cert.Loss.sum_bands fun i =>
    Cert.Loss.term (m ((c : Thread nD τ).loc main_arg0) i) (m ((c : Thread nD τ).loc main_arg1) i)).symm
  show ∑ t : Fin 16, _ = ∑ t : Fin 16, _
  refine Finset.sum_congr rfl fun t _ => ?_
  unfold bandTotal Cert.Loss.total
  refine Finset.sum_congr rfl fun j _ => ?_
  exact congrArg₂ Cert.Loss.term (band_of_arg0 m c ⟨t.val, _⟩ t rfl j) (band_of_arg1 m c ⟨t.val, _⟩ t rfl j)

end Cert.KernelIdeal.Loss

end
-- ==== Proof.KernelRun.lean ====
/-
  The kernel's result, on the extended reals.

  The output array has one element.  It is written back once, after the last grid point, and the block written is the
  whole array; so after the region it holds the sum of the term over the whole argument arrays.  The two host
  operations after the region view that one element as a scalar and take its square root: the result is the square
  root of that sum.  The argument arrays end as they began.
-/
import proofs.«123734_j36206574305815_1_alg».proof.Proof.Gen.KernelIdeal.Frame
import proofs.«123734_j36206574305815_1_alg».proof.Proof.Accumulate
import Idealize.ShloMosaic.Lib.Pipeline.Value
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Loss

open Cert.KernelIdeal Cert.KernelIdeal.Gen

variable (m : (ℓ : Loc nD τ sig) → Buf (Elt Ideal) ℓ) (ρ : Dev nD → PrngReg)

/-- The one-element output array holding the sum of the term over the whole argument arrays. -/
def totalArray (c : Dev nD) : Buf (Elt Ideal) ((c : Thread nD τ).loc main_v0) := fun _ => lossTotal m c

/-- The one write-back, after the last point, writes that array's block: the block is the whole array (it starts at the
    origin and has the array's extent), and the staging block then holds the total at its one position. -/
theorem written_back (c : Dev nD) (t : Fin cfg0.N) (hf : (cfg0.win 2).flush t = true) :
    (dats m 0 c).flushed 2 t = ((cfg0.win 2).blk t).view.read (Elt Ideal) (totalArray m c) := by
  have hN : cfg0.N = 16 := N_0
  have h15 : t.val = 15 := by have := (flush0_2 t).mp hf; have := t.isLt; omega
  obtain rfl : t = t0_15 := Fin.ext h15
  have origin : (fun a => win0_2.index t0_15 a * main_v0.ty.shape.size a) = fun _ => 0 :=
    funext fun a => by fin_cases a <;> decide
  show (cfg0.win 2).cut (grid0.coords t0_15) ((dats m 0 c).after 2 t0_15) = _
  rw [after0_2]
  refine Eq.trans ?_ (Memref.read_access_unit_zero (Elt Ideal) main_v0 origin (fun a => by
    have h0 : win0_2.index t0_15 a * main_v0.ty.shape.size a = 0 := congrFun origin a
    show win0_2.index t0_15 a * main_v0.ty.shape.size a + main_v0.ty.shape.size a ≤ main_v0.ty.shape.size a
    rw [h0, Nat.zero_add]) (totalArray m c)).symm
  funext y
  show outsAt0 m c t0_15.val t0_15.isLt ((cfg0.win 2).xinj (grid0.coords t0_15) y) = lossTotal m c
  exact total_after_last m c _ _

/-- The block written back after the last point starts at the origin and has one element: it is the whole array. -/
theorem last_block_rect : ∀ a : Fin 2,
    win0_2.index t0_15 a * win0_2.size a = 0 ∧ win0_2.xsize (grid0.coords t0_15) a = 1 := by decide +kernel

/-- So after the region the output array holds the total. -/
theorem output_array (c : Dev nD) : (dats m 0 c).arrAt 2 cfg0.N = totalArray m c :=
  (dats m 0 c).arrAt_eq_of_cover 2 (totalArray m c) (written_back m c) fun i =>
    ⟨t0_15, (flush0_2 t0_15).mpr rfl, by
      show i ∈ ((View.whole main_v0).slice (win0_2.rect t0_15)).set
      rw [View.set_slice_whole]
      refine Rect.mem_set_unit.mpr fun a => ?_
      show win0_2.index t0_15 a * win0_2.size a ≤ (i a : ℕ)
        ∧ (i a : ℕ) < win0_2.index t0_15 a * win0_2.size a + win0_2.xsize (grid0.coords t0_15) a
      rw [(last_block_rect a).1, (last_block_rect a).2]
      refine ⟨Nat.zero_le _, ?_⟩
      match a with
      | ⟨0, _⟩ => exact (i 0).isLt
      | ⟨1, _⟩ => exact (i 1).isLt⟩

/-- The result buffer is neither scoped nor a window's array: the host operations after the region decide it. -/
theorem result_outside : main_v2 ∈ Pipeline.restRefs sig (cfgs 0).spec :=
  Pipeline.mem_restRefs_of main_v2 rfl (fun w => by fin_cases w <;> decide)

/-- The host operations after the region: the one element viewed as a scalar, then its square root. -/
theorem tail_value (c : Dev nD) :
    Pipeline.afterTail₀ cfgs (dats m) 0 (V0 m) [hostOps1] c main_v2
      = fun _ => FloatOps.hostUnary .sqrt (lossTotal m c) := by
  unfold Pipeline.afterTail₀
  show StableHlo.after hostOps1 _ (Proc.devRef .tc main_v2) = _
  after_results
  have region_exit : Pipeline.withArrays (cfgs 0).spec c (V0 m c) (fun w => (dats m 0 c).arrAt w (cfgs 0).N)
      (Proc.tc.devRef main_v0) = totalArray m c :=
    (Pipeline.withArrays_arr spec0 launch0.win.arr_inj c (V0 m c) (fun w => (dats m 0 c).arrAt w cfg0.N) 2).trans
      (output_array m c)
  rw [region_exit]
  rfl

/-- THE RUN: every weakly fair execution of the kernel's program ends with the result at the square root of the sum of
    the term over the whole argument arrays, and the argument arrays as they were. -/
theorem run : θ_run defs (onTc (τ := τ) (main (F := Ideal))) ⟨m, fun _ => 0, ρ⟩ fun r => ∀ c : Dev nD,
      r.2.mem ((c.tc : Thread nD τ).loc main_v2) = (fun _ => FloatOps.hostUnary .sqrt (lossTotal m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v2 result_outside).trans (tail_value m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.KernelIdeal.Loss

end
-- ==== Proof.ReferenceValue.lean ====
/-
  The reference's result, on the extended reals.

  The reference applies the same operations, position by position, to the whole 4096 x 8192 arrays: the two absolute
  values, the four comparisons with zero and their and / or, the two squares, the selection; so its selected array
  holds the term at every position.  It then adds that array up from zero and takes the square root: its result is the
  square root of zero plus the sum of the term over all positions.
-/
import proofs.«123734_j36206574305815_1_alg».proof.Proof.Gen.ReferenceIdeal.Read
import proofs.«123734_j36206574305815_1_alg».proof.Proof.Term

noncomputable section

open scoped BigOperators
open Idealize.ShloMosaic Idealize.ShloMosaic.ValueIdx

namespace Cert.ReferenceIdeal.Loss

open Cert.ReferenceIdeal Cert.ReferenceIdeal.Read

/-- The selected array holds the term at every position. -/
theorem selected_apply (x0 x1 : (⟨S4096x8192, .f32⟩ : BufTy).Contents (Elt Ideal)) (i : S4096x8192.Idx) :
    val_main_v17 (F := Ideal) x0 x1 i = Cert.Loss.term (x0 i) (x1 i) := by
  simp only [val_main_v17_apply, val_main_v12_apply, val_main_v6_apply, val_main_v11_apply, val_main_v3_apply,
    val_main_v5_apply, val_main_v8_apply, val_main_v10_apply, val_main_v2_apply, val_main_v4_apply, val_main_v7_apply,
    val_main_v9_apply, val_main_cst_apply, val_main_cst_0_apply, val_main_cst_1_apply, val_main_cst_2_apply,
    val_main_v14_apply, val_main_v16_apply, val_main_v13_apply, val_main_v15_apply, val_main_v0_apply, val_main_v1_apply,
    Ideal.hostAbsf_def]
  rfl

/-- The reference's result: the square root of zero plus the sum of the term over all positions. -/
theorem result_apply (x0 x1 : (⟨S4096x8192, .f32⟩ : BufTy).Contents (Elt Ideal)) (i : S_.Idx) :
    val_main_v19 (F := Ideal) x0 x1 i
      = FloatOps.hostUnary .sqrt ((FloatOps.ofBits .f32 0x00000000#32 : Ideal .f32) + Cert.Loss.total x0 x1) := by
  rw [val_main_v19_apply, val_main_v18_apply, val_main_cst_3_apply]
  refine congrArg (FloatOps.hostUnary .sqrt) (congrArg (_ + ·) ?_)
  exact Finset.sum_congr rfl fun j _ => selected_apply x0 x1 j

end Cert.ReferenceIdeal.Loss

end
-- ==== Proof.lean ====
/-
  A loss over two 4096 x 8192 arrays o and t: at each position the term is (|o| + |t|)^2 where the signs of o and t
  strictly disagree and (|o| - |t|)^2 elsewhere; the loss is the square root of the sum of the term over all
  positions.

  The kernel walks the arrays in sixteen bands of 256 rows.  Its one-element output block is set to zero at the first
  band and gains, at every band, the sum of the term over that band; after the last band the block is written to the
  output array, and the host takes the square root.  The reference computes the term on the whole arrays, adds it up
  from zero, and takes the square root.

  On the extended reals both are the square root of the same number: the sixteen band sums added up in band order,
  starting from zero, are the sum over all positions, because every row lies in exactly one band and addition of
  extended reals is commutative and associative (no finiteness is needed: nothing is cancelled or distributed).

    Term           the term, the band / row bijection, the regrouping of the sum, a running total
    CaseValues     what one grid point leaves in the output block (first point; later points)
    BandSum        the body's arithmetic read on the extended reals: previous content plus the band's sum
    Accumulate     the block after each point, by induction on the point; after the last, the whole sum
    KernelRun      the output array after the region, the host's square root, the kernel's run
    ReferenceValue the reference's result read operation by operation

  The frames of the two kernel programs and the reference's run are the generated ones; the idealization rewrote no
  operation, so there is nothing to preserve.
-/
import proofs.«123734_j36206574305815_1_alg».proof.Defs
import proofs.«123734_j36206574305815_1_alg».proof.Proof.Gen.Kernel
import proofs.«123734_j36206574305815_1_alg».proof.Proof.Gen.Kernel.Skeleton
import proofs.«123734_j36206574305815_1_alg».proof.Proof.Gen.Kernel.Launch
import proofs.«123734_j36206574305815_1_alg».proof.Proof.Gen.Kernel.Points
import proofs.«123734_j36206574305815_1_alg».proof.Proof.Gen.Kernel.Frame
import proofs.«123734_j36206574305815_1_alg».proof.Proof.Gen.KernelIdeal
import proofs.«123734_j36206574305815_1_alg».proof.Proof.Gen.KernelIdeal.Skeleton
import proofs.«123734_j36206574305815_1_alg».proof.Proof.Gen.KernelIdeal.Launch
import proofs.«123734_j36206574305815_1_alg».proof.Proof.Gen.KernelIdeal.Points
import proofs.«123734_j36206574305815_1_alg».proof.Proof.Gen.KernelIdeal.Frame
import proofs.«123734_j36206574305815_1_alg».proof.Proof.Gen.ReferenceIdeal
import proofs.«123734_j36206574305815_1_alg».proof.Proof.Gen.ReferenceIdeal.Run
import proofs.«123734_j36206574305815_1_alg».proof.Proof.Gen.ReferenceIdeal.Read
import proofs.«123734_j36206574305815_1_alg».proof.Proof.Gen.Pre_finite_inputs
import proofs.«123734_j36206574305815_1_alg».proof.Proof.KernelRun
import proofs.«123734_j36206574305815_1_alg».proof.Proof.ReferenceValue
import Idealize.ShloMosaic.Adequacy
import Idealize.ShloMosaic.Init

noncomputable section

namespace Cert.Proof

open Idealize.ShloMosaic Idealize.SL.Sem

/-- The kernel as printed runs and leaves its arguments alone. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end at the square root of the sum of the term over the whole arrays: the kernel by its sixteen band
    sums, the reference by one sum started from zero, which adds nothing. -/
theorem algebraic : Cert.algebraic_KernelIdeal_ReferenceIdeal := by
  intro m ρ m' ρ' _ hagree
  refine ⟨fun c => fun _ => FloatOps.hostUnary .sqrt (Cert.KernelIdeal.Loss.lossTotal m c),
    Cert.KernelIdeal.Loss.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq]
  funext i
  rw [Cert.ReferenceIdeal.Loss.result_apply, (hagree c).1, (hagree c).2]
  refine congrArg (FloatOps.hostUnary .sqrt) ?_
  exact (congrArg (· + _) Ideal.ofBits_zero_f32).trans (zero_add _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
